-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x1 : Shape := ⟨2, ![1600000, 1]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_

variable [Facts]

def fn {F : FTy → Type} [FloatOps F] (main_arg0 : FVec F S100000x64 .f32) (main_arg1 : FVec F S1600000x1 .f32) (main_arg2 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x1 .f32 := Host.absf main_arg1
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  main_v8
-- ==== Kernel.lean ====
abbrev S100000x64 : Shape := ⟨2, ![100000, 64]⟩
abbrev S1600000x1 : Shape := ⟨2, ![1600000, 1]⟩
abbrev S2x1600000 : Shape := ⟨2, ![2, 1600000]⟩
abbrev S1x1600000 : Shape := ⟨2, ![1, 1600000]⟩
abbrev S1600000 : Shape := ⟨1, ![1600000]⟩
abbrev S10000x64 : Shape := ⟨2, ![10000, 64]⟩
abbrev S10000 : Shape := ⟨1, ![10000]⟩
abbrev S10000x1 : Shape := ⟨2, ![10000, 1]⟩
abbrev S_ : Shape := ⟨0, ![]⟩
abbrev S1600000x64 : Shape := ⟨2, ![1600000, 64]⟩
abbrev S8000x64 : Shape := ⟨2, ![8000, 64]⟩
abbrev S8000x1 : Shape := ⟨2, ![8000, 1]⟩
abbrev S5000x64 : Shape := ⟨2, ![5000, 64]⟩

abbrev nBuf : Space → Nat
  | .hbm => 37
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S1600000x1, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S100000x64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S8000x64, .f32⟩
  | .local _ .vmem, ⟨5, _⟩ => ⟨S8000x64, .f32⟩
  | .local _ .vmem, ⟨6, _⟩ => ⟨S8000x1, .f32⟩
  | .local _ .vmem, ⟨7, _⟩ => ⟨S8000x1, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8000x1, .f32⟩
  | .local _ .vmem, ⟨13, _⟩ => ⟨S8000x1, .f32⟩
  | .local _ .vmem, ⟨14, _⟩ => ⟨S8000x64, .f32⟩
  | .local _ .vmem, ⟨15, _⟩ => ⟨S8000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x64_S10000x64_0_0 : ∀ a, (![0, 0] : Fin 2 → Nat) a + S10000x64.size a ≤ S10000x64.size a
  h_S10000x64 : 0 < S10000x64.numel
  reduces_S10000x64_S10000 : S10000x64.Reduces [1] S10000
  shapeCasts_S10000_S10000x1 : S10000.ShapeCasts S10000x1
  broadcasts_S10000x1_S10000x64 : S10000x1.Broadcasts S10000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  broadcasts_S8000x1_S8000x64 : S8000x1.Broadcasts S8000x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1600000x64.size a
  hwx1_2 : ∀ i : grid1.Coords, EltTy.bits .f32 = 32 ∨ (Rect.block (s := S1600000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S1600000x1.size a
  hwx2_1 : ∀ i : grid2.Coords, EltTy.bits .f32 = 32 ∨ (Rect.block (s := S1600000x1) S8000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S1600000x64.size a
  hwx2_2 : ∀ i : grid2.Coords, EltTy.bits .f32 = 32 ∨ (Rect.block (s := S1600000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S10000x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v11) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v22) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v4) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v27) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S1600000x1 : Shape := ⟨2, ![1600000, 1]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S100000x1 : Shape := ⟨2, ![100000, 1]⟩
abbrev S1600000x64 : Shape := ⟨2, ![1600000, 64]⟩

abbrev nBuf : Space → Nat
  | .hbm => 49
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x1, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S100000x64, .f32⟩
  | .hbm, ⟨8, _⟩ => ⟨S_, .f32⟩
  | .hbm, ⟨9, _⟩ => ⟨S100000, .f32⟩
  | .hbm, ⟨10, _⟩ => ⟨S100000x1, .f32⟩
  | .hbm, ⟨11, _⟩ => ⟨S100000x1, .f32⟩
  | .hbm, ⟨12, _⟩ => ⟨S_, .f32⟩
  | .hbm, ⟨13, _⟩ => ⟨S100000x1, .f32⟩
  | .hbm, ⟨14, _⟩ => ⟨S100000x1, .f32⟩
  | .hbm, ⟨15, _⟩ => ⟨S100000x64, .f32⟩
  | .hbm, ⟨16, _⟩ => ⟨S100000x64, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S1600000x64, .f32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S1600000x64, .f32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x64, .f32⟩
  | .hbm, ⟨48, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The run of the idealized kernel program with its result NAMED.

  The program is four grid regions (row normalisation; two edge scalings; the sum of three arrays) among four stretches
  of host operations (index preparation, two gathers, two scatter-adds).  Every weakly fair execution terminates, faults
  nowhere, leaves the three argument arrays as launched, and leaves in the result array the last boundary contents
  `W8` read at the result's buffer: the contents obtained from the launch memory by folding each host stretch and, for
  each region, replacing its output array by what the grid points wrote back.  The later modules read that fold.
-/
import proofs.«159267_j71038759076269_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents and the arguments end as launched. -/
theorem run_named : θ_run defs (onTc (τ := τ) (main (F := F))) ⟨m, fun _ => 0, ρ⟩ (fun r => ∀ c : Dev nD,
      r.2.mem ((c.tc : Thread nD τ).loc main_v27) = W8 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v27 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c)⟩)

end Cert.KernelIdeal.Named

end
-- ==== Proof.RowOps.lean ====
/-
  The three row-wise operations the kernel program's grid regions compute, as whole-array functions over the extended
  reals, index by index.

  * `unitRows x`: every row of the node table divided by the larger of its Euclidean length and a fixed floor
    (the length is the square root of the sum, over the row's 64 entries, of their squares);
  * `weighRows g w`: every row of the per-edge table multiplied by that edge's weight;
  * `sum3 a b c`: the entrywise sum of three node tables, associated to the left.

  No program is mentioned here: both programs' values are later shown to be these functions.
-/
import Idealize.ShloMosaic.PureOps.Ideal
import Idealize.ShloMosaic.PureOps.Ideal.Laws
import Idealize.ShloMosaic.Lib.ValueIdx

noncomputable section

namespace Cert.Rows

open Idealize.ShloMosaic Idealize.ShloMosaic.ValueIdx

/-- The node table: 100000 rows of 64 features. -/
abbrev Nodes : Shape := ⟨2, ![100000, 64]⟩
/-- The per-edge table: 1600000 rows of 64 features. -/
abbrev Edges : Shape := ⟨2, ![1600000, 64]⟩
/-- The edge weights: one column of 1600000 entries. -/
abbrev EdgeCol : Shape := ⟨2, ![1600000, 1]⟩

/-- The floor under a row's length: the value of the 32-bit pattern both programs write (about 1e-12). -/
def floorLen : EReal := Ideal.ofBits .f32 0x2B8CBCCC#32

/-- The sum of the squares of the 64 entries of row `r`. -/
def rowSq (x : FVec Ideal Nodes .f32) (r : Fin 100000) : EReal :=
  ∑ k : Fin 64, x (ix2 r k) * x (ix2 r k)

/-- The divisor of row `r`: its Euclidean length, or the floor if that is larger. -/
def rowLen (x : FVec Ideal Nodes .f32) (r : Fin 100000) : EReal :=
  max (Ideal.sqrt (rowSq x r)) floorLen

/-- Every entry divided by its row's divisor. -/
def unitRows (x : FVec Ideal Nodes .f32) : FVec Ideal Nodes .f32 :=
  fun i => Ideal.div (x i) (rowLen x (i 0))

theorem unitRows_ix2 (x : FVec Ideal Nodes .f32) (r : Fin 100000) (k : Fin 64) :
    unitRows x (ix2 r k) = Ideal.div (x (ix2 r k)) (rowLen x r) := rfl

/-- Every entry of an edge's row multiplied by the edge's weight. -/
def weighRows (g : FVec Ideal Edges .f32) (w : FVec Ideal EdgeCol .f32) : FVec Ideal Edges .f32 :=
  fun i => g i * w (ix2 (i 0) (0 : Fin 1))

theorem weighRows_ix2 (g : FVec Ideal Edges .f32) (w : FVec Ideal EdgeCol .f32) (e : Fin 1600000) (k : Fin 64) :
    weighRows g w (ix2 e k) = g (ix2 e k) * w (ix2 e (0 : Fin 1)) := rfl

/-- The entrywise sum of three tables, the first two added first. -/
def sum3 (a b c : FVec Ideal Nodes .f32) : FVec Ideal Nodes .f32 :=
  fun i => a i + b i + c i

theorem sum3_apply (a b c : FVec Ideal Nodes .f32) (i : Nodes.Idx) : sum3 a b c i = a i + b i + c i := rfl

end Cert.Rows

end
-- ==== Proof.KHost.lean ====
/-
  The kernel program's value as ONE function of its three arguments.

  From the edge list (a 2 × 1600000 integer array) the host reads the edges' source nodes (row 0) and destination
  nodes (row 1).  A LAYER sends a node table `h` to the table whose row `i` is the sum, over the edges `e` with
  destination `i`, of row `source e` of `h` times the weight of `e`: the host gathers the source rows (a negative
  source index first moved up by the number of nodes), a grid region weighs them (`weighRows`), and the host
  scatter-adds the weighed rows into a zero table at the destinations.  The program's result is the sum of the
  row-normalised table, one layer of it and two layers of it (`sum3`).
-/
import proofs.«159267_j71038759076269_2_alg».proof.Proof.Gen.KernelIdeal
import proofs.«159267_j71038759076269_2_alg».proof.Proof.RowOps

noncomputable section

open Idealize.ShloMosaic Idealize.ShloMosaic.TcCoe Idealize.SL.Sem

namespace Cert.KernelIdeal.Whole

open Cert.KernelIdeal Cert.KernelIdeal.Facts₀

/-- A node table, a per-edge table, the weights, the edge list, a node index per edge (as a vector and as a column). -/
abbrev NodeTab := (⟨S100000x64, .f32⟩ : BufTy).Contents (Elt Ideal)
abbrev EdgeTab := (⟨S1600000x64, .f32⟩ : BufTy).Contents (Elt Ideal)
abbrev Weights := (⟨S1600000x1, .f32⟩ : BufTy).Contents (Elt Ideal)
abbrev EdgeList := (⟨S2x1600000, .i32⟩ : BufTy).Contents (Elt Ideal)
abbrev PerEdge := (⟨S1600000, .i32⟩ : BufTy).Contents (Elt Ideal)
abbrev PerEdgeCol := (⟨S1600000x1, .i32⟩ : BufTy).Contents (Elt Ideal)

/-- The edges' source nodes: row 0 of the edge list, as a vector. -/
def sources (adj : EdgeList) : PerEdge :=
  shapeCast S1600000 (extractStridedSlice S1x1600000 ![0, 0] adj slices_S2x1600000_S1x1600000_0_0) shapeCasts_S1x1600000_S1600000

/-- The edges' destination nodes: row 1 of the edge list, as a vector. -/
def dests (adj : EdgeList) : PerEdge :=
  shapeCast S1600000 (extractStridedSlice S1x1600000 ![1, 0] adj slices_S2x1600000_S1x1600000_1_0) shapeCasts_S1x1600000_S1600000

/-- A per-edge node index as the gather reads it: a negative index moved up by 100000, then laid out as a column. -/
def wrapped (s : PerEdge) : PerEdgeCol :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The rows of `h` at the edges' sources. -/
def atSources (h : NodeTab) (adj : EdgeList) : EdgeTab :=
  Host.gather gather_S100000x64_S1600000x1_S1600000x64_1_0_n_n_0_1_164 h (wrapped (sources adj))

/-- A per-edge table added up into a zero node table at the edges' destinations. -/
def intoDests (msg : EdgeTab) (adj : EdgeList) : NodeTab :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (dests adj)) msg

/-- One layer: gather at the sources, weigh, add up at the destinations. -/
def layer (h : NodeTab) (w : Weights) (adj : EdgeList) : NodeTab :=
  intoDests (Cert.Rows.weighRows (atSources h adj) w) adj

/-- The program's result: the normalised table plus one layer of it plus two layers of it. -/
def result (x : NodeTab) (w : Weights) (adj : EdgeList) : NodeTab :=
  Cert.Rows.sum3 (Cert.Rows.unitRows x) (layer (Cert.Rows.unitRows x) w adj) (layer (layer (Cert.Rows.unitRows x) w adj) w adj)

end Cert.KernelIdeal.Whole

end
-- ==== Proof.KNorm.lean ====
/-
  The first grid region of the kernel program: every row of the node table divided by the larger of its Euclidean
  length and a fixed floor, 10 grid points of 10000 rows each.

  At grid point `t` the input window and the output window are rows `10000 t … 10000 t + 9999` of their arrays (all 64
  columns).  The body squares the block entrywise, sums each row over its 64 lanes into a zero accumulator, views the
  row sums as a column, takes square roots, takes the maximum with the floor, broadcasts the column along the row and
  divides the block by it.  Entry `(p, q)` of what it stores is therefore the block's entry `(p, q)` divided by
  max(sqrt(sum over k of entry (p, k) squared), floor), which depends only on row `p` of the block, that is on one
  row of the array.  So what point `t` writes back is block `t` of `unitRows` of the whole array; the 10 blocks tile
  the 100000 rows; the output array ends holding `unitRows` of the array as the region found it.
-/
import proofs.«159267_j71038759076269_2_alg».proof.Proof.Gen.KernelIdeal.Frame
import proofs.«159267_j71038759076269_2_alg».proof.Proof.RowOps
import Idealize.ShloMosaic.Lib.Pipeline.Value
import Idealize.ShloMosaic.PureOps.Ideal.Laws
set_option maxRecDepth 16384

noncomputable section

open Idealize.ShloMosaic Idealize.ShloMosaic.TcCoe Idealize.SL.Sem Idealize.ShloMosaic.ValueIdx
open Idealize.ShloMosaic.Pipeline (Dat)

namespace Cert.KernelIdeal.Norm

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- A column broadcast along the row reads, at `(p, q)`, the column's entry `p`. -/
theorem columnAlongRow (x : Vec Ideal S10000x1 .f32) (h : S10000x1.Broadcasts S10000x64) (p : Fin 10000) (q : Fin 64) :
    broadcastTo S10000x64 x h (ix2 p q) = x (ix2 p (0 : Fin 1)) :=
  broadcastTo_apply x h (ix2 p q) (ix2 p (0 : Fin 1)) (fun a => by
    match a with
    | ⟨0, _⟩ => show p.val = if (10000 : Nat) = 1 then 0 else p.val; rw [if_neg (by decide)]
    | ⟨1, _⟩ => show 0 = if (1 : Nat) = 1 then 0 else q.val; rw [if_pos rfl])

/-- A vector viewed as a column reads, at `(p, 0)`, the vector's entry `p`. -/
theorem vectorAsColumn (v : FVec Ideal S10000 .f32) (h : S10000.ShapeCasts S10000x1) (p : Fin 10000) :
    shapeCast S10000x1 v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- The lane sum of a block into a zero accumulator reads, at row `p`, the sum of the row's 64 entries. -/
theorem laneSum (src : FVec Ideal S10000x64 .f32) (h : S10000x64.Reduces [1] S10000) (hφ : FKind.Formats .f32)
    (hacc : (0x00000000#32 : BitVec 32) = FKind.add.neutral .f32 hφ) (p : Fin 10000) :
    multiReduction .add [1] S10000 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  exact funext fun a => Fin.ext (by match a with | ⟨0, _⟩ => rfl | ⟨1, _⟩ => rfl)

/-- The body's stored value, entry by entry: the block's entry divided by its row's divisor. -/
theorem stored (x0 : Vec Ideal S10000x64 .f32) :
    k0_pay1 x0 = fun j => Ideal.div (x0 j)
      (max (Ideal.sqrt (∑ k : Fin 64, x0 (ix2 (j 0) k) * x0 (ix2 (j 0) k))) Cert.Rows.floorLen) := by
  funext j
  obtain ⟨p, q, rfl⟩ : ∃ (p : Fin 10000) (q : Fin 64), j = ix2 p q := ⟨j 0, j 1, eq_ix2 j⟩
  unfold k0_pay1
  refine congrArg (Ideal.div (x0 (ix2 p q))) ?_
  refine (columnAlongRow _ _ p q).trans ?_
  refine congrArg (fun z => max (Ideal.sqrt z) Cert.Rows.floorLen) ?_
  refine (vectorAsColumn _ _ p).trans ?_
  exact laneSum _ _ _ _ p

/-- At grid point `t` both windows' block is block row `t`, block column `0`. -/
theorem blockAt : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of `unitRows` of the array as the region finds it. -/
theorem flushed_eq (c : Dev nD) (t : Fin cfg0.N) :
    (dat0 V c).flushed 1 t
      = ((cfg0.win 1).blk t).view.read (Elt Ideal) (Cert.Rows.unitRows (V c main_arg0)) := by
  show (cfg0.win 1).cut (grid0.coords t) ((dat0 V c).after 1 t) = _
  rw [after0_1]
  unfold out0_1
  rw [View.canon_unit_zero zeros]
  simp only [View.ld_unit_zero (S := S10000x64) zeros]
  rw [stored (iblk0 V c 0 t)]
  obtain ⟨a0, a1, b0, b1⟩ := blockAt t
  funext j
  have hrow : ∀ k : Fin 64, ((cfg0.win 0).blk t).view.emb (ix2 (j 0) k) = ix2 ((((cfg0.win 1).blk t).view.emb j) 0) k := by
    intro k
    funext a; apply Fin.ext
    match a with
    | ⟨0, _⟩ => show win0_0.index t (0 : Fin 2) * 10000 + 1 * (j 0).val = win0_1.index t (0 : Fin 2) * 10000 + 1 * (j 0).val; omega
    | ⟨1, _⟩ => show win0_0.index t (1 : Fin 2) * 64 + 1 * k.val = k.val; omega
  have h0 : ((cfg0.win 0).blk t).view.emb j = ((cfg0.win 1).blk t).view.emb j := by
    funext a; apply Fin.ext
    match a with
    | ⟨0, _⟩ => show win0_0.index t (0 : Fin 2) * 10000 + 1 * (j 0).val = win0_1.index t (0 : Fin 2) * 10000 + 1 * (j 0).val; omega
    | ⟨1, _⟩ => show win0_0.index t (1 : Fin 2) * 64 + 1 * (j 1).val = win0_1.index t (1 : Fin 2) * 64 + 1 * (j 1).val; omega
  show Ideal.div (V c main_arg0 (((cfg0.win 0).blk t).view.emb j))
        (max (Ideal.sqrt (∑ k : Fin 64, FloatOps.mulf (F := Ideal) (φ := .f32) (V c main_arg0 (((cfg0.win 0).blk t).view.emb (ix2 (j 0) k)))
          (V c main_arg0 (((cfg0.win 0).blk t).view.emb (ix2 (j 0) k))))) Cert.Rows.floorLen)
      = Ideal.div (V c main_arg0 (((cfg0.win 1).blk t).view.emb j))
        (max (Ideal.sqrt (∑ k : Fin 64, FloatOps.mulf (F := Ideal) (φ := .f32) (V c main_arg0 (ix2 ((((cfg0.win 1).blk t).view.emb j) 0) k))
          (V c main_arg0 (ix2 ((((cfg0.win 1).blk t).view.emb j) 0) k)))) Cert.Rows.floorLen)
  rw [h0]
  simp only [hrow]
  rfl

/-- An index of the output array is in point `t`'s block iff each coordinate is in the block's range on its axis. -/
theorem mem_blk (t : Fin cfg0.N) (i : S100000x64.Idx) :
    i ∈ ((cfg0.win 1).blk t).view.set ↔ ∀ a : Fin 2, win0_1.index t a * S10000x64.size a ≤ (i a).val ∧ (i a).val < win0_1.index t a * S10000x64.size a + S10000x64.size a := by
  show i ∈ ((View.whole main_v4).slice (win0_1.rect t)).set ↔ _
  rw [View.set_slice_whole, Rect.mem_set_unit]
  exact Iff.rfl

/-- Row `r` lies in the block of point `r / 10000`: the 10 blocks tile the array. -/
theorem cover (i : S100000x64.Idx) : ∃ t : Fin cfg0.N, (cfg0.win 1).flush t = true ∧ i ∈ ((cfg0.win 1).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, d0, d1⟩ := blockAt t
  have ht : t.val = (i 0).val / 10000 := rfl
  refine ⟨t, flush0_1 t, ?_⟩
  rw [mem_blk]
  intro a
  match a with
  | ⟨0, _⟩ => show win0_1.index t (0 : Fin 2) * 10000 ≤ (i 0).val ∧ (i 0).val < win0_1.index t (0 : Fin 2) * 10000 + 10000; omega
  | ⟨1, _⟩ => show win0_1.index t (1 : Fin 2) * 64 ≤ (i 1).val ∧ (i 1).val < win0_1.index t (1 : Fin 2) * 64 + 64; omega

/-- The output array after the region: `unitRows` of the input array as the region found it. -/
theorem final (c : Dev nD) :
    (dat0 V c).arrAt 1 cfg0.N = Cert.Rows.unitRows (V c main_arg0) :=
  (dat0 V c).arrAt_eq_of_cover 1 _ (fun t _ => flushed_eq V c t) cover

end Cert.KernelIdeal.Norm

end
-- ==== Proof.KScale1.lean ====
/-
  The first edge-scaling grid region of the kernel program: every row of the gathered per-edge table times that
  edge's weight, 200 grid points of 8000 edges each.

  At grid point `t` the table's window, the weights' window and the output window are rows `8000 t … 8000 t + 7999`
  of their arrays (64 columns; one column for the weights).  The body multiplies the table's block by the weights'
  block broadcast along the row, so entry `(p, q)` of what it stores is the table's entry `(p, q)` times weight `p`.
  Hence what point `t` writes back is block `t` of `weighRows` of the two whole arrays; the 200 blocks tile the
  1600000 rows; the output array ends holding `weighRows` of the arrays as the region found them.
-/
import proofs.«159267_j71038759076269_2_alg».proof.Proof.Gen.KernelIdeal.Frame
import proofs.«159267_j71038759076269_2_alg».proof.Proof.RowOps
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scale1

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- A column broadcast along the row reads, at `(p, q)`, the column's entry `p`. -/
theorem columnAlongRow (x : Vec Ideal S8000x1 .f32) (h : S8000x1.Broadcasts S8000x64) (p : Fin 8000) (q : Fin 64) :
    broadcastTo S8000x64 x h (ix2 p q) = x (ix2 p (0 : Fin 1)) :=
  broadcastTo_apply x h (ix2 p q) (ix2 p (0 : Fin 1)) (fun a => by
    match a with
    | ⟨0, _⟩ => show p.val = if (8000 : Nat) = 1 then 0 else p.val; rw [if_neg (by decide)]
    | ⟨1, _⟩ => show 0 = if (1 : Nat) = 1 then 0 else q.val; rw [if_pos rfl])

/-- The body's stored value, entry by entry: the table's entry times the weight of its row. -/
theorem stored (x0 : Vec Ideal S8000x64 .f32) (x1 : Vec Ideal S8000x1 .f32) :
    k1_pay1 x0 x1 = fun j => x0 j * x1 (ix2 (j 0) (0 : Fin 1)) := by
  funext j
  obtain ⟨p, q, rfl⟩ : ∃ (p : Fin 8000) (q : Fin 64), j = ix2 p q := ⟨j 0, j 1, eq_ix2 j⟩
  unfold k1_pay1
  show shapeCast S8000x64 x0 _ (ix2 p q) * broadcastTo S8000x64 x1 _ (ix2 p q) = x0 (ix2 p q) * x1 (ix2 p (0 : Fin 1))
  rw [shapeCast_self, columnAlongRow]

/-- At grid point `t` every window's block is block row `t`, block column `0`. -/
theorem blockAt : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `weighRows` of the two arrays as the region finds them. -/
theorem flushed_eq (c : Dev nD) (t : Fin cfg1.N) :
    (dat1 V c).flushed 2 t
      = ((cfg1.win 2).blk t).view.read (Elt Ideal) (Cert.Rows.weighRows (V c main_v11) (V c main_arg1)) := by
  show (cfg1.win 2).cut (grid1.coords t) ((dat1 V c).after 2 t) = _
  rw [after1_2]
  unfold out1_2
  rw [View.canon_unit_zero zeros]
  simp only [View.ld_unit_zero (S := S8000x64) zeros, View.ld_unit_zero (S := S8000x1) zeros]
  rw [stored (iblk1 V c 0 t) (iblk1 V c 1 t)]
  obtain ⟨a0, a1, b0, b1, c0, c1⟩ := blockAt t
  funext j
  show FloatOps.mulf (F := Ideal) (φ := .f32) (V c main_v11 (((cfg1.win 0).blk t).view.emb j))
        (V c main_arg1 (((cfg1.win 1).blk t).view.emb (ix2 (j 0) (0 : Fin 1))))
      = FloatOps.mulf (F := Ideal) (φ := .f32) (V c main_v11 (((cfg1.win 2).blk t).view.emb j))
        (V c main_arg1 (ix2 ((((cfg1.win 2).blk t).view.emb j) 0) (0 : Fin 1)))
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (j 0) (0 : Fin 1)) = ix2 ((((cfg1.win 2).blk t).view.emb j) 0) (0 : Fin 1) := by
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 1 + 1 * 0 = 0; omega
  rw [h0, h1]
  rfl

/-- An index of the output array is in point `t`'s block iff each coordinate is in the block's range on its axis. -/
theorem mem_blk (t : Fin cfg1.N) (i : S1600000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v12).slice (win1_2.rect t)).set ↔ _
  rw [View.set_slice_whole, Rect.mem_set_unit]
  exact Iff.rfl

/-- Row `e` lies in the block of point `e / 8000`: the 200 blocks tile the array. -/
theorem cover (i : S1600000x64.Idx) : ∃ t : Fin cfg1.N, (cfg1.win 2).flush t = true ∧ i ∈ ((cfg1.win 2).blk t).view.set := by
  have hi0 : (i 0).val < 1600000 := (i 0).isLt
  have hi1 : (i 1).val < 64 := (i 1).isLt
  have hN : cfg1.N = 200 := N_1
  let t : Fin cfg1.N := ⟨(i 0).val / 8000, by rw [hN]; omega⟩
  obtain ⟨-, -, -, -, d0, d1⟩ := blockAt t
  have ht : t.val = (i 0).val / 8000 := rfl
  refine ⟨t, flush1_2 t, ?_⟩
  rw [mem_blk]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 64 ≤ (i 1).val ∧ (i 1).val < win1_2.index t (1 : Fin 2) * 64 + 64; omega

/-- The output array after the region: `weighRows` of the table and the weights as the region found them. -/
theorem final (c : Dev nD) :
    (dat1 V c).arrAt 2 cfg1.N = Cert.Rows.weighRows (V c main_v11) (V c main_arg1) :=
  (dat1 V c).arrAt_eq_of_cover 2 _ (fun t _ => flushed_eq V c t) cover

end Cert.KernelIdeal.Scale1

end
-- ==== Proof.KScale2.lean ====
/-
  The second edge-scaling grid region of the kernel program: every row of the gathered per-edge table times that
  edge's weight, 200 grid points of 8000 edges each.

  At grid point `t` the table's window, the weights' window and the output window are rows `8000 t … 8000 t + 7999`
  of their arrays (64 columns; one column for the weights).  The body multiplies the table's block by the weights'
  block broadcast along the row, so entry `(p, q)` of what it stores is the table's entry `(p, q)` times weight `p`.
  Hence what point `t` writes back is block `t` of `weighRows` of the two whole arrays; the 200 blocks tile the
  1600000 rows; the output array ends holding `weighRows` of the arrays as the region found them.
-/
import proofs.«159267_j71038759076269_2_alg».proof.Proof.Gen.KernelIdeal.Frame
import proofs.«159267_j71038759076269_2_alg».proof.Proof.RowOps
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scale2

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- A column broadcast along the row reads, at `(p, q)`, the column's entry `p`. -/
theorem columnAlongRow (x : Vec Ideal S8000x1 .f32) (h : S8000x1.Broadcasts S8000x64) (p : Fin 8000) (q : Fin 64) :
    broadcastTo S8000x64 x h (ix2 p q) = x (ix2 p (0 : Fin 1)) :=
  broadcastTo_apply x h (ix2 p q) (ix2 p (0 : Fin 1)) (fun a => by
    match a with
    | ⟨0, _⟩ => show p.val = if (8000 : Nat) = 1 then 0 else p.val; rw [if_neg (by decide)]
    | ⟨1, _⟩ => show 0 = if (1 : Nat) = 1 then 0 else q.val; rw [if_pos rfl])

/-- The body's stored value, entry by entry: the table's entry times the weight of its row. -/
theorem stored (x0 : Vec Ideal S8000x64 .f32) (x1 : Vec Ideal S8000x1 .f32) :
    k2_pay1 x0 x1 = fun j => x0 j * x1 (ix2 (j 0) (0 : Fin 1)) := by
  funext j
  obtain ⟨p, q, rfl⟩ : ∃ (p : Fin 8000) (q : Fin 64), j = ix2 p q := ⟨j 0, j 1, eq_ix2 j⟩
  unfold k2_pay1
  show shapeCast S8000x64 x0 _ (ix2 p q) * broadcastTo S8000x64 x1 _ (ix2 p q) = x0 (ix2 p q) * x1 (ix2 p (0 : Fin 1))
  rw [shapeCast_self, columnAlongRow]

/-- At grid point `t` every window's block is block row `t`, block column `0`. -/
theorem blockAt : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `weighRows` of the two arrays as the region finds them. -/
theorem flushed_eq (c : Dev nD) (t : Fin cfg2.N) :
    (dat2 V c).flushed 2 t
      = ((cfg2.win 2).blk t).view.read (Elt Ideal) (Cert.Rows.weighRows (V c main_v22) (V c main_arg1)) := by
  show (cfg2.win 2).cut (grid2.coords t) ((dat2 V c).after 2 t) = _
  rw [after2_2]
  unfold out2_2
  rw [View.canon_unit_zero zeros]
  simp only [View.ld_unit_zero (S := S8000x64) zeros, View.ld_unit_zero (S := S8000x1) zeros]
  rw [stored (iblk2 V c 0 t) (iblk2 V c 1 t)]
  obtain ⟨a0, a1, b0, b1, c0, c1⟩ := blockAt t
  funext j
  show FloatOps.mulf (F := Ideal) (φ := .f32) (V c main_v22 (((cfg2.win 0).blk t).view.emb j))
        (V c main_arg1 (((cfg2.win 1).blk t).view.emb (ix2 (j 0) (0 : Fin 1))))
      = FloatOps.mulf (F := Ideal) (φ := .f32) (V c main_v22 (((cfg2.win 2).blk t).view.emb j))
        (V c main_arg1 (ix2 ((((cfg2.win 2).blk t).view.emb j) 0) (0 : Fin 1)))
  have h0 : ((cfg2.win 0).blk t).view.emb j = ((cfg2.win 2).blk t).view.emb j := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (j 0) (0 : Fin 1)) = ix2 ((((cfg2.win 2).blk t).view.emb j) 0) (0 : Fin 1) := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 1 + 1 * 0 = 0; omega
  rw [h0, h1]
  rfl

/-- An index of the output array is in point `t`'s block iff each coordinate is in the block's range on its axis. -/
theorem mem_blk (t : Fin cfg2.N) (i : S1600000x64.Idx) :
    i ∈ ((cfg2.win 2).blk t).view.set ↔ ∀ a : Fin 2, win2_2.index t a * S8000x64.size a ≤ (i a).val ∧ (i a).val < win2_2.index t a * S8000x64.size a + S8000x64.size a := by
  show i ∈ ((View.whole main_v23).slice (win2_2.rect t)).set ↔ _
  rw [View.set_slice_whole, Rect.mem_set_unit]
  exact Iff.rfl

/-- Row `e` lies in the block of point `e / 8000`: the 200 blocks tile the array. -/
theorem cover (i : S1600000x64.Idx) : ∃ t : Fin cfg2.N, (cfg2.win 2).flush t = true ∧ i ∈ ((cfg2.win 2).blk t).view.set := by
  have hi0 : (i 0).val < 1600000 := (i 0).isLt
  have hi1 : (i 1).val < 64 := (i 1).isLt
  have hN : cfg2.N = 200 := N_2
  let t : Fin cfg2.N := ⟨(i 0).val / 8000, by rw [hN]; omega⟩
  obtain ⟨-, -, -, -, d0, d1⟩ := blockAt t
  have ht : t.val = (i 0).val / 8000 := rfl
  refine ⟨t, flush2_2 t, ?_⟩
  rw [mem_blk]
  intro a
  match a with
  | ⟨0, _⟩ => show win2_2.index t (0 : Fin 2) * 8000 ≤ (i 0).val ∧ (i 0).val < win2_2.index t (0 : Fin 2) * 8000 + 8000; omega
  | ⟨1, _⟩ => show win2_2.index t (1 : Fin 2) * 64 ≤ (i 1).val ∧ (i 1).val < win2_2.index t (1 : Fin 2) * 64 + 64; omega

/-- The output array after the region: `weighRows` of the table and the weights as the region found them. -/
theorem final (c : Dev nD) :
    (dat2 V c).arrAt 2 cfg2.N = Cert.Rows.weighRows (V c main_v22) (V c main_arg1) :=
  (dat2 V c).arrAt_eq_of_cover 2 _ (fun t _ => flushed_eq V c t) cover

end Cert.KernelIdeal.Scale2

end
-- ==== Proof.KSum3.lean ====
/-
  The last grid region of the kernel program: the sum of three node tables, 20 grid points of 5000 rows each.

  At grid point `t` each of the three input windows and the output window is rows `5000 t … 5000 t + 4999` of its
  array (all 64 columns), and the body stores the entrywise sum of the three input blocks, the first two added first.
  So what point `t` writes back is block `t` of the entrywise sum of the three whole arrays; the 20 blocks tile the
  100000 rows; hence the output array ends holding that sum, whatever the arrays held when the region was entered.
-/
import proofs.«159267_j71038759076269_2_alg».proof.Proof.Gen.KernelIdeal.Frame
import proofs.«159267_j71038759076269_2_alg».proof.Proof.RowOps
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Sum3

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- The body's stored value: the three loaded blocks added, left to right (the casts are to the same shape). -/
theorem stored (x0 x1 x2 : Vec Ideal S5000x64 .f32) : k3_pay1 x0 x1 x2 = addf (addf x0 x1) x2 := by
  unfold k3_pay1
  simp only [shapeCast_self]

/-- At grid point `t` every window's block is block row `t`, block column `0`. -/
theorem blockAt : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the entrywise sum of the three arrays as the region finds them. -/
theorem flushed_eq (c : Dev nD) (t : Fin cfg3.N) :
    (dat3 V c).flushed 3 t
      = ((cfg3.win 3).blk t).view.read (Elt Ideal) (Cert.Rows.sum3 (V c main_v4) (V c main_v15) (V c main_v26)) := by
  show (cfg3.win 3).cut (grid3.coords t) ((dat3 V c).after 3 t) = _
  rw [after3_3]
  unfold out3_3
  rw [View.canon_unit_zero zeros]
  simp only [View.ld_unit_zero (S := S5000x64) zeros]
  rw [stored]
  obtain ⟨a0, a1, b0, b1, c0, c1, d0, d1⟩ := blockAt t
  funext j
  show FloatOps.addf (F := Ideal) (φ := .f32) (FloatOps.addf (F := Ideal) (φ := .f32) (V c main_v4 (((cfg3.win 0).blk t).view.emb j))
        (V c main_v15 (((cfg3.win 1).blk t).view.emb j))) (V c main_v26 (((cfg3.win 2).blk t).view.emb j))
      = FloatOps.addf (F := Ideal) (φ := .f32) (FloatOps.addf (F := Ideal) (φ := .f32) (V c main_v4 (((cfg3.win 3).blk t).view.emb j))
        (V c main_v15 (((cfg3.win 3).blk t).view.emb j))) (V c main_v26 (((cfg3.win 3).blk t).view.emb j))
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * (j 1).val = win3_3.index t (1 : Fin 2) * 64 + 1 * (j 1).val; omega
  have h1 : ((cfg3.win 1).blk t).view.emb j = ((cfg3.win 3).blk t).view.emb j := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 64 + 1 * (j 1).val = win3_3.index t (1 : Fin 2) * 64 + 1 * (j 1).val; omega
  have h2 : ((cfg3.win 2).blk t).view.emb j = ((cfg3.win 3).blk t).view.emb j := by
    funext a; apply Fin.ext
    match a with
    | ⟨0, _⟩ => show win3_2.index t (0 : Fin 2) * 5000 + 1 * (j 0).val = win3_3.index t (0 : Fin 2) * 5000 + 1 * (j 0).val; omega
    | ⟨1, _⟩ => show win3_2.index t (1 : Fin 2) * 64 + 1 * (j 1).val = win3_3.index t (1 : Fin 2) * 64 + 1 * (j 1).val; omega
  rw [h0, h1, h2]

/-- An index of the output array is in point `t`'s block iff each coordinate is in the block's range on its axis. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v27).slice (win3_3.rect t)).set ↔ _
  rw [View.set_slice_whole, Rect.mem_set_unit]
  exact Iff.rfl

/-- Row `r` lies in the block of point `r / 5000`: the 20 blocks tile the array. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨-, -, -, -, -, -, d0, d1⟩ := blockAt t
  have ht : t.val = (i 0).val / 5000 := rfl
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The output array after the region: the entrywise sum of the three input arrays as the region found them. -/
theorem final (c : Dev nD) :
    (dat3 V c).arrAt 3 cfg3.N = Cert.Rows.sum3 (V c main_v4) (V c main_v15) (V c main_v26) :=
  (dat3 V c).arrAt_eq_of_cover 3 _ (fun t _ => flushed_eq V c t) cover

end Cert.KernelIdeal.Sum3

end
-- ==== Proof.KFold.lean ====
/-
  The last boundary contents of the kernel program's run, read back to the three arguments.

  The run's boundary contents are a fold: each stretch of host operations applied to the contents before it, and each
  grid region replacing its output array by what its grid points wrote back.  Walking the fold from the launch:
  the edge list gives the sources and the destinations; region 0 leaves the row-normalised table; the first gather,
  region 1 and the first scatter-add leave one layer of it; the second gather, region 2 and the second scatter-add leave
  two layers; region 3 leaves the sum of the three.  Every buffer a later step reads is carried unchanged through the
  steps that do not write it.  So the result buffer ends at `Whole.result` of the three arguments as launched.
-/
import proofs.«159267_j71038759076269_2_alg».proof.Proof.Gen.KernelIdeal.Frame
import proofs.«159267_j71038759076269_2_alg».proof.Proof.KHost
import proofs.«159267_j71038759076269_2_alg».proof.Proof.KNorm
import proofs.«159267_j71038759076269_2_alg».proof.Proof.KScale1
import proofs.«159267_j71038759076269_2_alg».proof.Proof.KScale2
import proofs.«159267_j71038759076269_2_alg».proof.Proof.KSum3
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.KernelIdeal.Whole

variable (m : (ℓ : Loc nD τ sig) → Buf (Elt Ideal) ℓ) (ρ : Dev nD → PrngReg) (c : Dev nD)

/-- The three arguments as launched. -/
abbrev table : NodeTab := m ((c : Thread nD τ).loc main_arg0)
abbrev weights : Weights := m ((c : Thread nD τ).loc main_arg1)
abbrev edges : EdgeList := m ((c : Thread nD τ).loc main_arg2)

/-- The normalised table, one layer's weighed rows, one layer, the second layer's weighed rows, two layers. -/
abbrev unit : NodeTab := Cert.Rows.unitRows (table m c)
abbrev weighed1 : EdgeTab := Cert.Rows.weighRows (atSources (unit m c) (edges m c)) (weights m c)
abbrev layer1 : NodeTab := intoDests (weighed1 m c) (edges m c)
abbrev weighed2 : EdgeTab := Cert.Rows.weighRows (atSources (layer1 m c) (edges m c)) (weights m c)
abbrev layer2 : NodeTab := intoDests (weighed2 m c) (edges m c)

/-! ## After the first host stretch: the sources and destinations are read off the edge list -/

theorem at1_arg0 : W1 m ρ c (Proc.devRef .tc main_arg0) = table m c := by
  show StableHlo.after hostOps0 (W0 m ρ c) (Proc.devRef .tc main_arg0) = _
  after_results
theorem at1_arg1 : W1 m ρ c (Proc.devRef .tc main_arg1) = weights m c := by
  show StableHlo.after hostOps0 (W0 m ρ c) (Proc.devRef .tc main_arg1) = _
  after_results
theorem at1_v1 : W1 m ρ c (Proc.devRef .tc main_v1) = sources (edges m c) := by
  show StableHlo.after hostOps0 (W0 m ρ c) (Proc.devRef .tc main_v1) = _
  after_results
  rfl
theorem at1_v3 : W1 m ρ c (Proc.devRef .tc main_v3) = dests (edges m c) := by
  show StableHlo.after hostOps0 (W0 m ρ c) (Proc.devRef .tc main_v3) = _
  after_results
  rfl

/-! ## After region 0: the normalised table -/

theorem at2_v4 : W2 m ρ c (Proc.devRef .tc main_v4) = unit m c :=
  (W2_arr m ρ c 1).trans ((Cert.KernelIdeal.Norm.final (V1 m ρ) c).trans (congrArg Cert.Rows.unitRows (at1_arg0 m ρ c)))
theorem at2_arg1 : W2 m ρ c (Proc.devRef .tc main_arg1) = weights m c :=
  (W2_of_ne m ρ c main_arg1 (by decide)).trans (at1_arg1 m ρ c)
theorem at2_v1 : W2 m ρ c (Proc.devRef .tc main_v1) = sources (edges m c) :=
  (W2_of_ne m ρ c main_v1 (by decide)).trans (at1_v1 m ρ c)
theorem at2_v3 : W2 m ρ c (Proc.devRef .tc main_v3) = dests (edges m c) :=
  (W2_of_ne m ρ c main_v3 (by decide)).trans (at1_v3 m ρ c)

/-! ## After the second host stretch: the normalised table's rows at the sources -/

theorem at3_v11 : W3 m ρ c (Proc.devRef .tc main_v11) = atSources (unit m c) (edges m c) := by
  show StableHlo.after hostOps1 (W2 m ρ c) (Proc.devRef .tc main_v11) = _
  after_results
  rw [at2_v4, at2_v1]
  rfl
theorem at3_v4 : W3 m ρ c (Proc.devRef .tc main_v4) = unit m c := by
  show StableHlo.after hostOps1 (W2 m ρ c) (Proc.devRef .tc main_v4) = _
  after_results
  exact at2_v4 m ρ c
theorem at3_arg1 : W3 m ρ c (Proc.devRef .tc main_arg1) = weights m c := by
  show StableHlo.after hostOps1 (W2 m ρ c) (Proc.devRef .tc main_arg1) = _
  after_results
  exact at2_arg1 m ρ c
theorem at3_v1 : W3 m ρ c (Proc.devRef .tc main_v1) = sources (edges m c) := by
  show StableHlo.after hostOps1 (W2 m ρ c) (Proc.devRef .tc main_v1) = _
  after_results
  exact at2_v1 m ρ c
theorem at3_v3 : W3 m ρ c (Proc.devRef .tc main_v3) = dests (edges m c) := by
  show StableHlo.after hostOps1 (W2 m ρ c) (Proc.devRef .tc main_v3) = _
  after_results
  exact at2_v3 m ρ c

/-! ## After region 1: those rows weighed -/

theorem at4_v12 : W4 m ρ c (Proc.devRef .tc main_v12) = weighed1 m c :=
  (W4_arr m ρ c 2).trans ((Cert.KernelIdeal.Scale1.final (V3 m ρ) c).trans
    (congrArg₂ Cert.Rows.weighRows (at3_v11 m ρ c) (at3_arg1 m ρ c)))
theorem at4_v4 : W4 m ρ c (Proc.devRef .tc main_v4) = unit m c :=
  (W4_of_ne m ρ c main_v4 (by decide)).trans (at3_v4 m ρ c)
theorem at4_arg1 : W4 m ρ c (Proc.devRef .tc main_arg1) = weights m c :=
  (W4_arr m ρ c 1).trans (((dat1 (V3 m ρ) c).arrAt_in 1 rfl _).trans ((A_eq1 (V3 m ρ) c 1).trans (at3_arg1 m ρ c)))
theorem at4_v1 : W4 m ρ c (Proc.devRef .tc main_v1) = sources (edges m c) :=
  (W4_of_ne m ρ c main_v1 (by decide)).trans (at3_v1 m ρ c)
theorem at4_v3 : W4 m ρ c (Proc.devRef .tc main_v3) = dests (edges m c) :=
  (W4_of_ne m ρ c main_v3 (by decide)).trans (at3_v3 m ρ c)

/-! ## After the third host stretch: one layer, and its rows at the sources -/

theorem at5_v15 : W5 m ρ c (Proc.devRef .tc main_v15) = layer1 m c := by
  show StableHlo.after hostOps2 (W4 m ρ c) (Proc.devRef .tc main_v15) = _
  after_results
  rw [at4_v3, at4_v12]
  rfl
theorem at5_v22 : W5 m ρ c (Proc.devRef .tc main_v22) = atSources (layer1 m c) (edges m c) := by
  show StableHlo.after hostOps2 (W4 m ρ c) (Proc.devRef .tc main_v22) = _
  after_results
  rw [at4_v3, at4_v12, at4_v1]
  rfl
theorem at5_v4 : W5 m ρ c (Proc.devRef .tc main_v4) = unit m c := by
  show StableHlo.after hostOps2 (W4 m ρ c) (Proc.devRef .tc main_v4) = _
  after_results
  exact at4_v4 m ρ c
theorem at5_arg1 : W5 m ρ c (Proc.devRef .tc main_arg1) = weights m c := by
  show StableHlo.after hostOps2 (W4 m ρ c) (Proc.devRef .tc main_arg1) = _
  after_results
  exact at4_arg1 m ρ c
theorem at5_v3 : W5 m ρ c (Proc.devRef .tc main_v3) = dests (edges m c) := by
  show StableHlo.after hostOps2 (W4 m ρ c) (Proc.devRef .tc main_v3) = _
  after_results
  exact at4_v3 m ρ c

/-! ## After region 2: the second layer's weighed rows -/

theorem at6_v23 : W6 m ρ c (Proc.devRef .tc main_v23) = weighed2 m c :=
  (W6_arr m ρ c 2).trans ((Cert.KernelIdeal.Scale2.final (V5 m ρ) c).trans
    (congrArg₂ Cert.Rows.weighRows (at5_v22 m ρ c) (at5_arg1 m ρ c)))
theorem at6_v15 : W6 m ρ c (Proc.devRef .tc main_v15) = layer1 m c :=
  (W6_of_ne m ρ c main_v15 (by decide)).trans (at5_v15 m ρ c)
theorem at6_v4 : W6 m ρ c (Proc.devRef .tc main_v4) = unit m c :=
  (W6_of_ne m ρ c main_v4 (by decide)).trans (at5_v4 m ρ c)
theorem at6_v3 : W6 m ρ c (Proc.devRef .tc main_v3) = dests (edges m c) :=
  (W6_of_ne m ρ c main_v3 (by decide)).trans (at5_v3 m ρ c)

/-! ## After the fourth host stretch: two layers -/

theorem at7_v26 : W7 m ρ c (Proc.devRef .tc main_v26) = layer2 m c := by
  show StableHlo.after hostOps3 (W6 m ρ c) (Proc.devRef .tc main_v26) = _
  after_results
  rw [at6_v3, at6_v23]
  rfl
theorem at7_v15 : W7 m ρ c (Proc.devRef .tc main_v15) = layer1 m c := by
  show StableHlo.after hostOps3 (W6 m ρ c) (Proc.devRef .tc main_v15) = _
  after_results
  exact at6_v15 m ρ c
theorem at7_v4 : W7 m ρ c (Proc.devRef .tc main_v4) = unit m c := by
  show StableHlo.after hostOps3 (W6 m ρ c) (Proc.devRef .tc main_v4) = _
  after_results
  exact at6_v4 m ρ c

/-! ## After region 3: the sum of the three tables -/

/-- The result buffer at the last boundary is the program's value of the arguments as launched. -/
theorem at8_result : W8 m ρ c (Proc.devRef .tc main_v27) = result (table m c) (weights m c) (edges m c) :=
  (W8_arr m ρ c 3).trans ((Cert.KernelIdeal.Sum3.final (V7 m ρ) c).trans
    (by rw [show V7 m ρ c main_v4 = unit m c from at7_v4 m ρ c, show V7 m ρ c main_v15 = layer1 m c from at7_v15 m ρ c,
          show V7 m ρ c main_v26 = layer2 m c from at7_v26 m ρ c]; rfl))

end Cert.KernelIdeal.Fold

end
-- ==== Proof.KValue.lean ====
/-
  The idealized kernel program's run with its result as a function of the arguments: every weakly fair execution
  terminates without a fault, the result array ends at `Whole.result` of the three argument arrays as launched, and the
  argument arrays end unchanged (the run with the result named, and the read-back of the last boundary contents).
-/
import proofs.«159267_j71038759076269_2_alg».proof.Proof.KRun
import proofs.«159267_j71038759076269_2_alg».proof.Proof.KFold

noncomputable section

open Idealize.ShloMosaic Idealize.ShloMosaic.TcCoe Idealize.SL.Sem

namespace Cert.KernelIdeal.Whole

open Cert.KernelIdeal

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v27)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (Cert.KernelIdeal.Fold.at8_result m ρ c), (h c).2⟩)
    (Cert.KernelIdeal.Named.run_named m ρ)

end Cert.KernelIdeal.Whole

end
-- ==== Proof.RefStages.lean ====
/-
  The reference program's three row-wise stages are the functions of RowOps.

  * its normalised table (the input divided by the broadcast of max(sqrt(row sums of squares), floor)) is `unitRows`:
    the host's sum over axis 1 is the sum over the row's 64 entries, added to a zero initial value; the host's
    square root, maximum and quotient are the extended reals' own; the two broadcasts read row `r`'s one value;
  * a gathered table times the broadcast weights is `weighRows`;
  * two additions in a row are `sum3`.
-/
import proofs.«159267_j71038759076269_2_alg».proof.Proof.Gen.ReferenceIdeal.Read
import proofs.«159267_j71038759076269_2_alg».proof.Proof.RowOps

noncomputable section

open Idealize.ShloMosaic Idealize.ShloMosaic.TcCoe Idealize.SL.Sem Idealize.ShloMosaic.ValueIdx

namespace Cert.ReferenceIdeal.Stages

open Cert.ReferenceIdeal Cert.ReferenceIdeal.Gen Cert.ReferenceIdeal.Read

/-- Row `r`, entry `k'`, reached through the two broadcasts and the reduction's inserted coordinate. -/
theorem rowEntry (r : Fin 100000) (k : Fin 64) (k' : Fin 64) :
    idx_main_call0_v1 (idx_main_call0_v2 (idx_main_v7 (ix2 r k))) k' = ix2 r k' :=
  funext fun a => Fin.ext (by match a with | ⟨0, _⟩ => rfl | ⟨1, _⟩ => rfl)

/-- The normalised table of the reference is `unitRows` of the input. -/
theorem norm_eq (x0 : (⟨S100000x64, .f32⟩ : BufTy).Contents (Elt Ideal)) :
    val_main_v8 (F := Ideal) x0 = Cert.Rows.unitRows x0 := by
  funext i
  obtain ⟨r, k, rfl⟩ : ∃ (r : Fin 100000) (k : Fin 64), i = ix2 r k := ⟨i 0, i 1, eq_ix2 i⟩
  rw [val_main_v8_apply, val_main_v7_apply, val_main_v6_apply, val_main_v4_apply, val_main_call0_v2_apply,
    val_main_call0_v1_apply, val_main_v5_apply, val_main_cst_apply, val_main_call0_cst_apply]
  simp only [val_main_call0_v0_apply, rowEntry, Ideal.hostDivf_def, Ideal.hostUnary_sqrt_def, Ideal.maximumf_def,
    Ideal.mulf_def, Ideal.ofBits_def, Ideal.ofBits_zero_f32, zero_add]
  rfl

/-- The weight of edge `e`, reached through the broadcast along the row. -/
theorem weightEntry (e : Fin 1600000) (k : Fin 64) : idx_main_v16 (ix2 e k) = ix2 e (0 : Fin 1) :=
  funext fun a => Fin.ext (by match a with | ⟨0, _⟩ => rfl | ⟨1, _⟩ => rfl)

theorem weightEntry' (e : Fin 1600000) (k : Fin 64) : idx_main_v28 (ix2 e k) = ix2 e (0 : Fin 1) :=
  funext fun a => Fin.ext (by match a with | ⟨0, _⟩ => rfl | ⟨1, _⟩ => rfl)

/-- A per-edge table times the broadcast weights is `weighRows` (first layer's broadcast). -/
theorem scale_eq (g : (⟨S1600000x64, .f32⟩ : BufTy).Contents (Elt Ideal)) (x1 : (⟨S1600000x1, .f32⟩ : BufTy).Contents (Elt Ideal)) :
    mulf g (val_main_v16 (F := Ideal) x1) = Cert.Rows.weighRows g x1 := by
  funext i
  obtain ⟨e, k, rfl⟩ : ∃ (e : Fin 1600000) (k : Fin 64), i = ix2 e k := ⟨i 0, i 1, eq_ix2 i⟩
  show g (ix2 e k) * val_main_v16 (F := Ideal) x1 (ix2 e k) = g (ix2 e k) * x1 (ix2 e (0 : Fin 1))
  rw [val_main_v16_apply, weightEntry]

/-- The same for the second layer's broadcast. -/
theorem scale_eq' (g : (⟨S1600000x64, .f32⟩ : BufTy).Contents (Elt Ideal)) (x1 : (⟨S1600000x1, .f32⟩ : BufTy).Contents (Elt Ideal)) :
    mulf g (val_main_v28 (F := Ideal) x1) = Cert.Rows.weighRows g x1 := by
  funext i
  obtain ⟨e, k, rfl⟩ : ∃ (e : Fin 1600000) (k : Fin 64), i = ix2 e k := ⟨i 0, i 1, eq_ix2 i⟩
  show g (ix2 e k) * val_main_v28 (F := Ideal) x1 (ix2 e k) = g (ix2 e k) * x1 (ix2 e (0 : Fin 1))
  rw [val_main_v28_apply, weightEntry']

/-- Two additions in a row are the sum of three. -/
theorem add_add_eq (a b c : (⟨S100000x64, .f32⟩ : BufTy).Contents (Elt Ideal)) :
    addf (addf a b) c = Cert.Rows.sum3 a b c := rfl

end Cert.ReferenceIdeal.Stages

end
-- ==== Proof.Bridge.lean ====
/-
  The two programs compute one function.

  The reference's result, stage by stage, is: the row-normalised table (`unitRows`, RefStages), gathered at the edges'
  sources, multiplied by the broadcast weights (`weighRows`, RefStages), scatter-added at the destinations — twice —
  and the three tables added (`sum3`).  The gather, the scatter-add and the integer index preparation are the same
  host operations with the same operands in both programs, so once the three row-wise stages are named the two terms
  coincide.
-/
import proofs.«159267_j71038759076269_2_alg».proof.Proof.KHost
import proofs.«159267_j71038759076269_2_alg».proof.Proof.RefStages

noncomputable section

open Idealize.ShloMosaic Idealize.ShloMosaic.TcCoe Idealize.SL.Sem

namespace Cert.Bridge

open Cert.KernelIdeal.Whole Cert.ReferenceIdeal.Read Cert.ReferenceIdeal.Stages

/-- The reference's result as a function of the three arguments is the kernel program's. -/
theorem result_eq (x : NodeTab) (w : Weights) (adj : EdgeList) :
    val_main_v34 (F := Ideal) x w adj = result x w adj := by
  unfold val_main_v34 val_main_v33 val_main_v32 val_main_v29 val_main_v27 val_main_v20 val_main_v17 val_main_v15
  rw [norm_eq, scale_eq, scale_eq', add_add_eq]
  rfl

end Cert.Bridge

end
-- ==== Proof.lean ====
/-
  The certificate's claim: a two-layer weighted graph aggregation over a row-normalised node table, computed by a
  program of four grid regions among host gathers and scatter-adds, against its plain array reference.

  Both programs compute, over the extended reals, the sum of three node tables: the input with every row divided by
  max(its Euclidean length, a floor); one LAYER of that table; and two layers of it — a layer sending a table `h` to the
  table whose row `i` is the sum over the edges into `i` of the edge's source row of `h` times the edge's weight.
  The kernel program computes the normalisation, the weighing of the gathered rows and the final sum in grid regions,
  block of rows by block of rows; the reference computes them with whole-array host operations.  Region by region
  the blocks written back tile the output array and each block is the block of one whole-array function (KNorm,
  KScale1, KScale2, KSum3); the host operations between the regions are the same in both programs (KFold, Bridge).
  No algebraic law is needed beyond reading a lane sum and a host sum as the same finite sum, so the precondition
  (finite inputs) is never opened.

  The three frames are the generated ones (the reference's is its run with the result dropped); the idealization
  rewrote no operation, so `preserves` is trivial.
-/
import proofs.«159267_j71038759076269_2_alg».proof.Defs
import proofs.«159267_j71038759076269_2_alg».proof.Proof.Gen.Kernel
import proofs.«159267_j71038759076269_2_alg».proof.Proof.Gen.Kernel.Skeleton
import proofs.«159267_j71038759076269_2_alg».proof.Proof.Gen.Kernel.Launch
import proofs.«159267_j71038759076269_2_alg».proof.Proof.Gen.Kernel.Points
import proofs.«159267_j71038759076269_2_alg».proof.Proof.Gen.Kernel.Frame
import proofs.«159267_j71038759076269_2_alg».proof.Proof.Gen.KernelIdeal
import proofs.«159267_j71038759076269_2_alg».proof.Proof.Gen.KernelIdeal.Skeleton
import proofs.«159267_j71038759076269_2_alg».proof.Proof.Gen.KernelIdeal.Launch
import proofs.«159267_j71038759076269_2_alg».proof.Proof.Gen.KernelIdeal.Points
import proofs.«159267_j71038759076269_2_alg».proof.Proof.Gen.KernelIdeal.Frame
import proofs.«159267_j71038759076269_2_alg».proof.Proof.Gen.ReferenceIdeal
import proofs.«159267_j71038759076269_2_alg».proof.Proof.Gen.ReferenceIdeal.Run
import proofs.«159267_j71038759076269_2_alg».proof.Proof.Gen.ReferenceIdeal.Read
import proofs.«159267_j71038759076269_2_alg».proof.Proof.Gen.Pre_finite_inputs
import proofs.«159267_j71038759076269_2_alg».proof.Proof.KValue
import proofs.«159267_j71038759076269_2_alg».proof.Proof.Bridge
import Idealize.ShloMosaic.Adequacy
import Idealize.ShloMosaic.Init

noncomputable section

namespace Cert.Proof

open Idealize.ShloMosaic Idealize.SL.Sem

/-- The word-level kernel program runs, faults nowhere and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same result array: the kernel
    program's value of the arguments, which is the reference's (`Bridge.result_eq`). -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2]
  exact Cert.Bridge.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
